-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S2x1677722 : Shape := ⟨2, ![2, 1677722]⟩
abbrev S1677722 : Shape := ⟨1, ![1677722]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1677722 : S_.BroadcastsInDim S1677722 (![] : Fin 0 → Fin S1677722.rank)
  reducesTo_S1677722_S_d0 : S1677722.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : IVec S2x1677722 32) (main_arg2 : FVec F S1677722 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1677722 .f32 := Host.absf main_arg2
  let main_cst_0 : FVec F S_ .f32 := constant S_ .f32 0x7F800000#32
  let main_v5 : FVec F S1677722 .f32 := broadcastInDim S1677722 ![] bcast_S_S1677722 main_cst_0
  let main_v6 : IVec S1677722 1 := cmpf .olt main_v4 main_v5
  let main_c_1 : IVec S_ 1 := constantI S_ 1 1#1
  let main_v7 : IVec S_ 1 := (fun x v => Host.reduce IntOp.andi x v reducesTo_S1677722_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S2x1677722 : Shape := ⟨2, ![2, 1677722]⟩
abbrev S1677722 : Shape := ⟨1, ![1677722]⟩
abbrev S4096 : Shape := ⟨1, ![4096]⟩
abbrev S_ : Shape := ⟨0, ![]⟩
abbrev S4096x4096 : Shape := ⟨2, ![4096, 4096]⟩
abbrev S1x1677722 : Shape := ⟨2, ![1, 1677722]⟩
abbrev S1677722x1 : Shape := ⟨2, ![1677722, 1]⟩
abbrev S1677722x2 : Shape := ⟨2, ![1677722, 2]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 32
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S2x1677722, .i32⟩
  | .hbm, ⟨2, _⟩ => ⟨S1677722, .f32⟩
  | .hbm, ⟨3, _⟩ => ⟨S4096, .f32⟩
  | .hbm, ⟨4, _⟩ => ⟨S_, .f32⟩
  | .hbm, ⟨5, _⟩ => ⟨S4096x4096, .f32⟩
  | .hbm, ⟨6, _⟩ => ⟨S1x1677722, .i32⟩
  | .hbm, ⟨7, _⟩ => ⟨S1677722, .i32⟩
  | .hbm, ⟨8, _⟩ => ⟨S1x1677722, .i32⟩
  | .hbm, ⟨9, _⟩ => ⟨S1677722, .i32⟩
  | .hbm, ⟨10, _⟩ => ⟨S_, .i32⟩
  | .hbm, ⟨11, _⟩ => ⟨S1677722, .i32⟩
  | .hbm, ⟨12, _⟩ => ⟨S1677722, .i1⟩
  | .hbm, ⟨13, _⟩ => ⟨S_, .i32⟩
  | .hbm, ⟨14, _⟩ => ⟨S1677722, .i32⟩
  | .hbm, ⟨15, _⟩ => ⟨S1677722, .i32⟩
  | .hbm, ⟨16, _⟩ => ⟨S1677722, .i32⟩
  | .hbm, ⟨17, _⟩ => ⟨S_, .i32⟩
  | .hbm, ⟨18, _⟩ => ⟨S1677722, .i32⟩
  | .hbm, ⟨19, _⟩ => ⟨S1677722, .i1⟩
  | .hbm, ⟨20, _⟩ => ⟨S_, .i32⟩
  | .hbm, ⟨21, _⟩ => ⟨S1677722, .i32⟩
  | .hbm, ⟨22, _⟩ => ⟨S1677722, .i32⟩
  | .hbm, ⟨23, _⟩ => ⟨S1677722, .i32⟩
  | .hbm, ⟨24, _⟩ => ⟨S1677722x1, .i32⟩
  | .hbm, ⟨25, _⟩ => ⟨S1677722x1, .i32⟩
  | .hbm, ⟨26, _⟩ => ⟨S1677722x2, .i32⟩
  | .hbm, ⟨27, _⟩ => ⟨S4096x4096, .f32⟩
  | .hbm, ⟨28, _⟩ => ⟨S8192x4096, .bf16⟩
  | .hbm, ⟨29, _⟩ => ⟨S4096x4096, .bf16⟩
  | .hbm, ⟨30, _⟩ => ⟨S1x4096, .f32⟩
  | .hbm, ⟨31, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  slices_S2x1677722_S1x1677722_0_0 : S2x1677722.Slices ![0, 0] S1x1677722
  shapeCasts_S1x1677722_S1677722 : S1x1677722.ShapeCasts S1677722
  slices_S2x1677722_S1x1677722_1_0 : S2x1677722.Slices ![1, 0] S1x1677722
  bcast_S_S1677722 : S_.BroadcastsInDim S1677722 (![] : Fin 0 → Fin S1677722.rank)
  bcast_S1677722_S1677722x1_0 : S1677722.BroadcastsInDim S1677722x1 (![0] : Fin 1 → Fin S1677722x1.rank)
  concatenates_S1677722x1_S1677722x1_S1677722x2_d1 : Shape.Concatenates [S1677722x1, S1677722x1] S1677722x2 1
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S4096x4096_S1677722x2_S1677722_n_01_01_1_wf : ScatterDims.WF S4096x4096 S1677722x2 S1677722 [] [0, 1] [0, 1] 1
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def scatter_S4096x4096_S1677722x2_S1677722_n_01_01_1 : ScatterDims S4096x4096 S1677722x2 S1677722 where
  updateWindowDims := []
  insertedWindowDims := [0, 1]
  scatterDimsToOperandDims := [0, 1]
  indexVectorDim := 1
  wf := scatter_S4096x4096_S1677722x2_S1677722_n_01_01_1_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v19) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S2x1677722 : Shape := ⟨2, ![2, 1677722]⟩
abbrev S1677722 : Shape := ⟨1, ![1677722]⟩
abbrev S4096 : Shape := ⟨1, ![4096]⟩
abbrev S_ : Shape := ⟨0, ![]⟩
abbrev S4096x4096 : Shape := ⟨2, ![4096, 4096]⟩
abbrev S1x1677722 : Shape := ⟨2, ![1, 1677722]⟩
abbrev S1677722x1 : Shape := ⟨2, ![1677722, 1]⟩
abbrev S1677722x2 : Shape := ⟨2, ![1677722, 2]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x1677722, .i32⟩
  | .hbm, ⟨2, _⟩ => ⟨S1677722, .f32⟩
  | .hbm, ⟨3, _⟩ => ⟨S4096, .f32⟩
  | .hbm, ⟨4, _⟩ => ⟨S_, .f32⟩
  | .hbm, ⟨5, _⟩ => ⟨S4096x4096, .f32⟩
  | .hbm, ⟨6, _⟩ => ⟨S1x1677722, .i32⟩
  | .hbm, ⟨7, _⟩ => ⟨S1677722, .i32⟩
  | .hbm, ⟨8, _⟩ => ⟨S1x1677722, .i32⟩
  | .hbm, ⟨9, _⟩ => ⟨S1677722, .i32⟩
  | .hbm, ⟨10, _⟩ => ⟨S_, .i32⟩
  | .hbm, ⟨11, _⟩ => ⟨S1677722, .i32⟩
  | .hbm, ⟨12, _⟩ => ⟨S1677722, .i1⟩
  | .hbm, ⟨13, _⟩ => ⟨S_, .i32⟩
  | .hbm, ⟨14, _⟩ => ⟨S1677722, .i32⟩
  | .hbm, ⟨15, _⟩ => ⟨S1677722, .i32⟩
  | .hbm, ⟨16, _⟩ => ⟨S1677722, .i32⟩
  | .hbm, ⟨17, _⟩ => ⟨S_, .i32⟩
  | .hbm, ⟨18, _⟩ => ⟨S1677722, .i32⟩
  | .hbm, ⟨19, _⟩ => ⟨S1677722, .i1⟩
  | .hbm, ⟨20, _⟩ => ⟨S_, .i32⟩
  | .hbm, ⟨21, _⟩ => ⟨S1677722, .i32⟩
  | .hbm, ⟨22, _⟩ => ⟨S1677722, .i32⟩
  | .hbm, ⟨23, _⟩ => ⟨S1677722, .i32⟩
  | .hbm, ⟨24, _⟩ => ⟨S1677722x1, .i32⟩
  | .hbm, ⟨25, _⟩ => ⟨S1677722x1, .i32⟩
  | .hbm, ⟨26, _⟩ => ⟨S1677722x2, .i32⟩
  | .hbm, ⟨27, _⟩ => ⟨S4096x4096, .f32⟩
  | .hbm, ⟨28, _⟩ => ⟨S4096x4096, .f32⟩
  | .hbm, ⟨29, _⟩ => ⟨S8192x4096, .f32⟩
  | .hbm, ⟨30, _⟩ => ⟨S1x4096, .f32⟩
  | .hbm, ⟨31, _⟩ => ⟨S8192x4096, .f32⟩
  | .hbm, ⟨32, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  slices_S2x1677722_S1x1677722_0_0 : S2x1677722.Slices ![0, 0] S1x1677722
  shapeCasts_S1x1677722_S1677722 : S1x1677722.ShapeCasts S1677722
  slices_S2x1677722_S1x1677722_1_0 : S2x1677722.Slices ![1, 0] S1x1677722
  bcast_S_S1677722 : S_.BroadcastsInDim S1677722 (![] : Fin 0 → Fin S1677722.rank)
  bcast_S1677722_S1677722x1_0 : S1677722.BroadcastsInDim S1677722x1 (![0] : Fin 1 → Fin S1677722x1.rank)
  concatenates_S1677722x1_S1677722x1_S1677722x2_d1 : Shape.Concatenates [S1677722x1, S1677722x1] S1677722x2 1
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  scatter_S4096x4096_S1677722x2_S1677722_n_01_01_1_wf : ScatterDims.WF S4096x4096 S1677722x2 S1677722 [] [0, 1] [0, 1] 1
  dot_S8192x4096_S4096x4096_S8192x4096_1_0_0_1_n_n_wf : DotDims.WF S8192x4096 S4096x4096 S8192x4096 [1] [0] [0] [1] [] []

variable [Facts₀]

def scatter_S4096x4096_S1677722x2_S1677722_n_01_01_1 : ScatterDims S4096x4096 S1677722x2 S1677722 where
  updateWindowDims := []
  insertedWindowDims := [0, 1]
  scatterDimsToOperandDims := [0, 1]
  indexVectorDim := 1
  wf := scatter_S4096x4096_S1677722x2_S1677722_n_01_01_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibSumBlocks.lean ====
/-
  Finite sums over index sets, rearranged; every statement holds in any commutative additive monoid.

  * `sum_blocks`: a sum over `m * n` consecutive positions is the sum over `m` blocks of the sums over the `n`
    positions inside each block (position `t * n + r` is position `r` of block `t`).
  * `sum_idx1`: a sum over the index set of a rank-1 shape `[n]` is the sum over its one coordinate.
  * `sum_idxMid`: a sum over the index set of a shape `[1, n, 1]` is the sum over its middle coordinate.
-/
import Idealize.ShloMosaic.Lib.ValueIdx

open scoped BigOperators

namespace Cert.Lib.SumBlocks

open Idealize.ShloMosaic Idealize.ShloMosaic.ValueIdx

/-- A sum over `N = m * n` positions is the sum over `m` blocks of `n` consecutive positions each: `g t r` names
    position `r` of block `t`, which is position `t * n + r` of the whole. Only commutativity and associativity of
    the addition are used. -/
theorem sum_blocks {M : Type*} [AddCommMonoid M] (m n N : ℕ) (hN : N = m * n) (f : Fin N → M)
    (g : Fin m → Fin n → Fin N) (hg : ∀ t r, (g t r).val = t.val * n + r.val) :
    ∑ i : Fin N, f i = ∑ t : Fin m, ∑ r : Fin n, f (g t r) := by
  subst hN
  rw [← Equiv.sum_comp finProdFinEquiv f, Fintype.sum_prod_type]
  refine Finset.sum_congr rfl fun t _ => Finset.sum_congr rfl fun r _ => congrArg f (Fin.ext ?_)
  rw [hg, finProdFinEquiv_apply_val]
  show r.val + n * t.val = t.val * n + r.val
  rw [Nat.mul_comm, Nat.add_comm]

/-- The index set of a rank-1 shape is the range of its one coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The index set of a shape `[1, n, 1]` is the range of its middle coordinate: the two outer coordinates can only
    be `0` … -/
def idxEquivMid {n : Nat} : (⟨3, ![1, n, 1]⟩ : Shape).Idx ≃ Fin n where
  toFun i := i 1
  invFun a := ix3 (0 : Fin 1) a (0 : Fin 1)
  left_inv i := by
    funext d
    match d with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idxMid {M : Type*} [AddCommMonoid M] {n : Nat} (f : (⟨3, ![1, n, 1]⟩ : Shape).Idx → M) :
    ∑ i, f i = ∑ a : Fin n, f (ix3 (0 : Fin 1) a (0 : Fin 1)) := by
  rw [← Equiv.sum_comp (idxEquivMid (n := n)).symm f]
  rfl

end Cert.Lib.SumBlocks
-- ==== Proof.Affine.lean ====
/-
  The function both programs compute, over the extended reals: for an input matrix X (8192 × 4096), a weight
  matrix W (4096 × 4096, row c holding the weights of output feature c) and a bias vector b (4096),

      affine X W b (r, c) = (∑ k < 4096, X (r, k) · W (c, k)) + b c        -- X · Wᵀ + b.

  The blocked program reaches entry (r, c) of output block (R, C) through four consecutive grid points, one per
  depth block; point n = 16·R + 4·C + d contributes the partial dot product over the depth block d
  (`pointTerm`). Summing the four contributions of a run is the full contraction (`sum_run`): a sum over
  4 · 1024 consecutive positions regrouped into 4 blocks of 1024, which needs only that addition of extended
  reals is commutative and associative — no finiteness.
-/
import Idealize.ShloMosaic.PureOps.Ideal
import Idealize.ShloMosaic.Lib.ValueIdx
import proofs.«102108_j29695403884701_1_alg».proof.Proof.LibSumBlocks

noncomputable section

open scoped BigOperators

namespace Cert.Affine

open Idealize.ShloMosaic Idealize.ShloMosaic.ValueIdx

/-- The index sets of the three arrays and of one 1024 × 1024 block. -/
abbrev XIdx := (⟨2, ![8192, 4096]⟩ : Shape).Idx
abbrev WIdx := (⟨2, ![4096, 4096]⟩ : Shape).Idx
abbrev BIdx := (⟨1, ![4096]⟩ : Shape).Idx
abbrev TileIdx := (⟨2, ![1024, 1024]⟩ : Shape).Idx

/-- X · Wᵀ + b, entry by entry. -/
def affine (X : XIdx → EReal) (W : WIdx → EReal) (b : BIdx → EReal) : XIdx → EReal :=
  fun i => (∑ k : Fin 4096, X (ix2 (i 0) k) * W (ix2 (i 1) k)) + b (ix1 (i 1))

/-- Grid point n = 16·R + 4·C + d works on row block R = n / 16: its local row p is row 1024·R + p of X. -/
def rowOf (n : ℕ) (p : Fin 1024) : Fin 8192 := ⟨(1024 * (n / 16) + p.val) % 8192, Nat.mod_lt _ (by decide)⟩
/-- It works on column block C = n / 4 mod 4: its local column q is output feature 1024·C + q. -/
def colOf (n : ℕ) (q : Fin 1024) : Fin 4096 := ⟨(1024 * (n / 4 % 4) + q.val) % 4096, Nat.mod_lt _ (by decide)⟩
/-- It works on depth block d = n mod 4: its local depth position j is contraction position 1024·d + j. -/
def depthOf (n : ℕ) (j : Fin 1024) : Fin 4096 := ⟨(1024 * (n % 4) + j.val) % 4096, Nat.mod_lt _ (by decide)⟩

/-- What grid point n adds to entry y of its output block: the dot product over its depth block. -/
def pointTerm (X : XIdx → EReal) (W : WIdx → EReal) (n : ℕ) (y : TileIdx) : EReal :=
  ∑ j : Fin 1024, X (ix2 (rowOf n (y 0)) (depthOf n j)) * W (ix2 (colOf n (y 1)) (depthOf n j))

/-- The four points of the run that contains t (those with the same row and column block) together contribute
    the whole contraction. -/
theorem sum_run (X : XIdx → EReal) (W : WIdx → EReal) (t : ℕ) (y : TileIdx) :
    ∑ s ∈ Finset.range 4, pointTerm X W (4 * (t / 4) + s) y
      = ∑ k : Fin 4096, X (ix2 (rowOf t (y 0)) k) * W (ix2 (colOf t (y 1)) k) := by
  rw [Finset.sum_range]
  have hrow : ∀ s : Fin 4, rowOf (4 * (t / 4) + s.val) (y 0) = rowOf t (y 0) := fun s => by
    apply Fin.ext
    show (1024 * ((4 * (t / 4) + s.val) / 16) + (y 0).val) % 8192 = (1024 * (t / 16) + (y 0).val) % 8192
    have hs := s.isLt
    have e : (4 * (t / 4) + s.val) / 16 = t / 16 := by omega
    rw [e]
  have hcol : ∀ s : Fin 4, colOf (4 * (t / 4) + s.val) (y 1) = colOf t (y 1) := fun s => by
    apply Fin.ext
    show (1024 * ((4 * (t / 4) + s.val) / 4 % 4) + (y 1).val) % 4096 = (1024 * (t / 4 % 4) + (y 1).val) % 4096
    have hs := s.isLt
    have e : (4 * (t / 4) + s.val) / 4 = t / 4 := by omega
    rw [e]
  unfold pointTerm
  simp only [hrow, hcol]
  exact (Cert.Lib.SumBlocks.sum_blocks 4 1024 4096 rfl
    (fun k => X (ix2 (rowOf t (y 0)) k) * W (ix2 (colOf t (y 1)) k))
    (fun s j => depthOf (4 * (t / 4) + s.val) j)
    (fun s j => by
      show (1024 * ((4 * (t / 4) + s.val) % 4) + j.val) % 4096 = s.val * 1024 + j.val
      have hs := s.isLt
      have hj := j.isLt
      omega)).symm

/-- So the accumulated block entry — zero, plus the run's four contributions, plus the bias — is the entry of
    X · Wᵀ + b at the row and output feature the point's block places it at. -/
theorem run_total (X : XIdx → EReal) (W : WIdx → EReal) (b : BIdx → EReal) (t : ℕ) (y : TileIdx) (i : XIdx)
    (h0 : i 0 = rowOf t (y 0)) (h1 : i 1 = colOf t (y 1)) :
    (0 + ∑ s ∈ Finset.range 4, pointTerm X W (4 * (t / 4) + s) y) + b (ix1 (colOf t (y 1))) = affine X W b i := by
  unfold affine
  rw [sum_run, zero_add, h0, h1]

end Cert.Affine

end
-- ==== Proof.RefAffine.lean ====
/-
  The reference program's result, read entry by entry at the exact values, is X · Wᵀ + b (`Cert.Affine.affine`):
  its matrix product contracts X's columns against the rows of the transposed weight matrix, and entry (k, c) of the
  transpose is entry (c, k) of the weight matrix the scatter-add builds; the bias row is broadcast down the
  columns. The weight matrix itself stays the scatter-add's own term: nothing here depends on what it holds.
-/
import proofs.«102108_j29695403884701_1_alg».proof.Proof.Gen.ReferenceIdeal.Read
import proofs.«102108_j29695403884701_1_alg».proof.Proof.Affine

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx

/-- Entry (r, c) of the reference's result is (∑ₖ X (r, k) · W (c, k)) + b c, with W the scatter-add's matrix. -/
theorem result_is_affine (x0 : (⟨S8192x4096, .f32⟩ : BufTy).Contents (Elt Ideal)) (x1 : (⟨S2x1677722, .i32⟩ : BufTy).Contents (Elt Ideal))
    (x2 : (⟨S1677722, .f32⟩ : BufTy).Contents (Elt Ideal)) (x3 : (⟨S4096, .f32⟩ : BufTy).Contents (Elt Ideal)) :
    val_main_v23 (F := Ideal) x0 x1 x2 x3 = Cert.Affine.affine x0 (val_main_v18 (F := Ideal) x1 x2) x3 := by
  funext i
  have el : ∀ k : Fin 4096, lidx_main_v20 i k = ix2 (i 0) k := fun k => funext fun a => Fin.ext (by
    match a with
    | ⟨0, _⟩ => rfl
    | ⟨1, _⟩ => rfl)
  have er : ∀ k : Fin 4096, idx_main_v19 (ridx_main_v20 i k) = ix2 (i 1) k := fun k => funext fun a => Fin.ext (by
    match a with
    | ⟨0, _⟩ => rfl
    | ⟨1, _⟩ => rfl)
  have eb : idx_main_v21 (idx_main_v22 i) = ix1 (i 1) := funext fun a => Fin.ext (by
    match a with
    | ⟨0, _⟩ => rfl)
  rw [val_main_v23_apply, val_main_v20_apply, val_main_v22_apply, val_main_v21_apply]
  simp only [val_main_v19_apply, el, er, eb]
  rfl

end Cert.ReferenceIdeal.RefValue

end
-- ==== Proof.WeightsAgree.lean ====
/-
  Both programs build the weight matrix by the same host operations: split the index pairs into a row list and a
  column list, wrap negative indices (add the extent 4096 where an index is negative), pair the two lists up again,
  and scatter-add the values into a zero matrix. Named stage by stage (`rowIdx`, `colIdx`, `wrap`, `indexPairs`,
  `denseWeights`), the matrix the kernel's launch finds is `denseWeights` of the index and value arrays rounded to
  bf16 — the identity at the exact values — and the reference's matrix is the same term stage for stage. The
  scatter-add itself is never opened: nothing depends on what it computes, only on both programs applying it to the
  same operands.
-/
import proofs.«102108_j29695403884701_1_alg».proof.Proof.Gen.KernelIdeal.Frame
import proofs.«102108_j29695403884701_1_alg».proof.Proof.Gen.ReferenceIdeal.Read
import Idealize.ShloMosaic.Lib.StableHlo.Run

noncomputable section

open Idealize.ShloMosaic Idealize.ShloMosaic.TcCoe Idealize.SL.Sem

namespace Cert.KernelIdeal.Tile

open Cert.KernelIdeal Cert.KernelIdeal.Gen Idealize.ShloMosaic.StableHlo

section Stages

variable {F : FTy → Type} [FloatOps F]

/-- Row 0 of the index array: the row (output feature) index of every nonzero. -/
def rowIdx (x1 : (⟨S2x1677722, .i32⟩ : BufTy).Contents (Elt F)) : (⟨S1677722, .i32⟩ : BufTy).Contents (Elt F) :=
  shapeCast _ (extractStridedSlice S1x1677722 ![0, 0] x1 slices_S2x1677722_S1x1677722_0_0) shapeCasts_S1x1677722_S1677722

/-- Row 1 of the index array: the column (input feature) index of every nonzero. -/
def colIdx (x1 : (⟨S2x1677722, .i32⟩ : BufTy).Contents (Elt F)) : (⟨S1677722, .i32⟩ : BufTy).Contents (Elt F) :=
  shapeCast _ (extractStridedSlice S1x1677722 ![1, 0] x1 slices_S2x1677722_S1x1677722_1_0) shapeCasts_S1x1677722_S1677722

/-- A negative index counts from the end: where v < 0 take v + 4096, elsewhere v. -/
def wrap (v : (⟨S1677722, .i32⟩ : BufTy).Contents (Elt F)) : (⟨S1677722, .i32⟩ : BufTy).Contents (Elt F) :=
  select (cmpi .slt v (broadcastInDim S1677722 ![] bcast_S_S1677722 (constantI S_ 32 0#32)))
    (addi v (broadcastInDim S1677722 ![] bcast_S_S1677722 (constantI S_ 32 4096#32))) v

/-- The wrapped (row, column) pairs, one per nonzero. -/
def indexPairs (x1 : (⟨S2x1677722, .i32⟩ : BufTy).Contents (Elt F)) : (⟨S1677722x2, .i32⟩ : BufTy).Contents (Elt F) :=
  concatenate S1677722x2 1
    [⟨S1677722x1, broadcastInDim S1677722x1 ![0] bcast_S1677722_S1677722x1_0 (wrap (rowIdx x1))⟩,
     ⟨S1677722x1, broadcastInDim S1677722x1 ![0] bcast_S1677722_S1677722x1_0 (wrap (colIdx x1))⟩]
    concatenates_S1677722x1_S1677722x1_S1677722x2_d1

/-- The dense weight matrix: the values scatter-added into a zero matrix at their (row, column) pairs. -/
def denseWeights (x1 : (⟨S2x1677722, .i32⟩ : BufTy).Contents (Elt F)) (x2 : (⟨S1677722, .f32⟩ : BufTy).Contents (Elt F)) :
    (⟨S4096x4096, .f32⟩ : BufTy).Contents (Elt F) :=
  Host.scatterAdd scatter_S4096x4096_S1677722x2_S1677722_n_01_01_1
    (broadcastInDim S4096x4096 ![] bcast_S_S4096x4096 (constant S_ .f32 0x00000000#32)) (indexPairs x1) x2

end Stages

variable (m : (ℓ : Loc nD τ sig) → Buf (Elt Ideal) ℓ)

set_option maxHeartbeats 2000000 in
/-- The second window's array as the launch finds it: the dense weight matrix, rounded to bf16. -/
theorem launch_weights (c : Dev nD) :
    V m c main_v20 = (truncf (F := Ideal) .bf16
      (denseWeights (F := Ideal) (m ((c : Thread nD τ).loc main_arg1)) (m ((c : Thread nD τ).loc main_arg2))) bitsLt_bf16_f32
        : FVec Ideal S4096x4096 .bf16) := by
  dsimp only [Gen.V, Gen.hostOps0]; after_results <;> rfl

/-- Entry by entry, rounding changes nothing at the exact values. -/
theorem launch_weights_entry (c : Dev nD) (i : S4096x4096.Idx) :
    V m c main_v20 i = denseWeights (F := Ideal) (m ((c : Thread nD τ).loc main_arg1)) (m ((c : Thread nD τ).loc main_arg2)) i := by
  rw [launch_weights]
  rfl

/-! The reference's stages are the same terms. -/

theorem rowIdx_agree (x1 : (⟨S2x1677722, .i32⟩ : BufTy).Contents (Elt Ideal)) :
    rowIdx (F := Ideal) x1 = Cert.ReferenceIdeal.Read.val_main_v2 (F := Ideal) x1 := rfl

theorem colIdx_agree (x1 : (⟨S2x1677722, .i32⟩ : BufTy).Contents (Elt Ideal)) :
    colIdx (F := Ideal) x1 = Cert.ReferenceIdeal.Read.val_main_v4 (F := Ideal) x1 := rfl

theorem wrap_row_agree (x1 : (⟨S2x1677722, .i32⟩ : BufTy).Contents (Elt Ideal)) :
    wrap (F := Ideal) (Cert.ReferenceIdeal.Read.val_main_v2 (F := Ideal) x1) = Cert.ReferenceIdeal.Read.val_main_v9 (F := Ideal) x1 := rfl

theorem wrap_col_agree (x1 : (⟨S2x1677722, .i32⟩ : BufTy).Contents (Elt Ideal)) :
    wrap (F := Ideal) (Cert.ReferenceIdeal.Read.val_main_v4 (F := Ideal) x1) = Cert.ReferenceIdeal.Read.val_main_v14 (F := Ideal) x1 := rfl

theorem indexPairs_agree (x1 : (⟨S2x1677722, .i32⟩ : BufTy).Contents (Elt Ideal)) :
    indexPairs (F := Ideal) x1 = Cert.ReferenceIdeal.Read.val_main_v17 (F := Ideal) x1 := by
  unfold indexPairs
  rw [rowIdx_agree, colIdx_agree, wrap_row_agree, wrap_col_agree]
  rfl

theorem denseWeights_agree (x1 : (⟨S2x1677722, .i32⟩ : BufTy).Contents (Elt Ideal)) (x2 : (⟨S1677722, .f32⟩ : BufTy).Contents (Elt Ideal)) :
    denseWeights (F := Ideal) x1 x2 = Cert.ReferenceIdeal.Read.val_main_v18 (F := Ideal) x1 x2 := by
  unfold denseWeights
  rw [indexPairs_agree]
  rfl

/-- The weight matrix the launch finds is the reference's scatter-add of the same index and value arrays. -/
theorem weights_agree (c : Dev nD) :
    V m c main_v20
      = Cert.ReferenceIdeal.Read.val_main_v18 (F := Ideal) (m ((c : Thread nD τ).loc main_arg1)) (m ((c : Thread nD τ).loc main_arg2)) :=
  funext fun i => (launch_weights_entry m c i).trans (congrFun (denseWeights_agree _ _) i)

end Cert.KernelIdeal.Tile

end
-- ==== Proof.TilePieces.lean ====
/-
  What one grid point leaves behind, as pure terms of what it loaded (any float instance).

  Every load and store of the body goes through the whole 1024 × 1024 (or 1 × 1024) buffer at offset zero, so a
  load reads the buffer's contents and the last store's payload is what the buffer ends holding. Hence:

    * at the first depth block of a run the accumulator ends at   zero-splat + A·Bᵀ        (`acc_first`),
    * at every later depth block, over the accumulator `acc` the point before left, at   acc + A·Bᵀ   (`acc_later`,
      `acc_last`),
    * and at the last depth block the output block ends at   (acc + A·Bᵀ) + bias row broadcast down the rows
      (`out_last`),

  where A·Bᵀ is the matrix unit's product of the two loaded blocks into a zero accumulator — the generated payload
  terms `k0_pay1` (the zero splat), `k0_pay2` (accumulate one product) and `k0_pay3` (add the bias row).
-/
import proofs.«102108_j29695403884701_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Tile

open Cert.KernelIdeal Cert.KernelIdeal.Gen

variable {F : FTy → Type} [FloatOps F]

theorem zero_offsets : (![0, 0] : Fin 2 → Nat) = fun _ => 0 := funext fun a => by fin_cases a <;> rfl

/-- First depth block of a run: the accumulator is zeroed, read back, and ends at zero-splat + A·Bᵀ. -/
theorem acc_first (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 : Vec F S1024x1024 .bf16) (x1 : Vec F S1024x1024 .bf16) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) zero_offsets, View.readCov_unit_zero (S := S1024x1024) _ zero_offsets]
  simp only [View.readAt_eq_ld, h3.read_unread, h4.read_unread, View.ld_unit_zero (S := S1024x1024) zero_offsets]

/-- A middle depth block: over the accumulator `xs0` the point before left, the accumulator ends at xs0 + A·Bᵀ. -/
theorem acc_later (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero (S := S1024x1024) zero_offsets]
  simp only [View.readAt_eq_ld, h3.read_unread, h4.read_unread, h7.read_unread, View.ld_unit_zero (S := S1024x1024) zero_offsets]

/-- The last depth block: the accumulator likewise ends at xs0 + A·Bᵀ … -/
theorem acc_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero (S := S1024x1024) zero_offsets]
  simp only [View.readAt_eq_ld, h3.read_unread, h4.read_unread, h7.read_unread, View.ld_unit_zero (S := S1024x1024) zero_offsets]

/-- … and the output block is that accumulator, read back, plus the bias row broadcast down the rows. -/
theorem out_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i a3 h3 a4 h4 a5 h5 a6 h6 a7 h7 hc0 hc1 x0 x1 x2 xs0 = k0_pay3 x2 (k0_pay2 x0 x1 xs0) := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero (S := S1024x1024) zero_offsets, View.readCov_unit_zero (S := S1024x1024) _ zero_offsets]
  simp only [View.readAt_eq_ld, h3.read_unread, h4.read_unread, h5.read_unread, h7.read_unread,
    View.ld_unit_zero (S := S1024x1024) zero_offsets, View.ld_unit_zero (S := S1x1024) zero_offsets]

end Cert.KernelIdeal.Tile

end
-- ==== Proof.TileEntries.lean ====
/-
  The three payload terms of the body read at one entry (p, q) of the 1024 × 1024 block, at the exact values:

    * the zero splat is 0;
    * accumulating one product adds, to the accumulator's entry, the dot product of row p of the first block with
      row q of the second (both blocks are contracted along their second axis: A·Bᵀ), the matrix unit's own zero
      accumulator contributing nothing;
    * adding the bias row adds entry q of the 1 × 1024 row to every row p.
-/
import proofs.«102108_j29695403884701_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem

namespace Cert.KernelIdeal.Tile

open Cert.KernelIdeal Cert.KernelIdeal.Gen Idealize.ShloMosaic.ValueIdx

/-- The zero splat holds the extended real 0 at every entry. -/
theorem zero_entry (y : S1024x1024.Idx) : k0_pay1 (F := Ideal) y = 0 := by
  unfold k0_pay1
  simp only [shapeCast_self]
  exact Ideal.ofBits_zero_f32

/-- The left operand of the block product is read at (row of the output entry, contraction position) … -/
theorem lhs_at (p q k : Fin 1024) (κ : dot_S1024x1024_S1024x1024_S1024x1024_1_1_0_0_n_n.contr.Idx) (hκ : (κ ⟨0, by decide⟩).val = k.val) :
    dot_S1024x1024_S1024x1024_S1024x1024_1_1_0_0_n_n.lhsIdx (ix2 p q) κ = ix2 p k := funext fun a => Fin.ext (by
  match a with
  | ⟨0, _⟩ =>
    show (dot_S1024x1024_S1024x1024_S1024x1024_1_1_0_0_n_n.lhsIdx (ix2 p q) κ 0).val = p.val
    unfold DotDims.lhsIdx
    rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
    rfl
  | ⟨1, _⟩ => exact (dot_S1024x1024_S1024x1024_S1024x1024_1_1_0_0_n_n.lhsIdx_val_of_single rfl (ix2 p q) κ).trans hκ)

/-- … and the right operand at (column of the output entry, contraction position): both contract their second axis. -/
theorem rhs_at (p q k : Fin 1024) (κ : dot_S1024x1024_S1024x1024_S1024x1024_1_1_0_0_n_n.contr.Idx) (hκ : (κ ⟨0, by decide⟩).val = k.val) :
    dot_S1024x1024_S1024x1024_S1024x1024_1_1_0_0_n_n.rhsIdx (ix2 p q) κ = ix2 q k := funext fun a => Fin.ext (by
  match a with
  | ⟨0, _⟩ =>
    show (dot_S1024x1024_S1024x1024_S1024x1024_1_1_0_0_n_n.rhsIdx (ix2 p q) κ 0).val = q.val
    unfold DotDims.rhsIdx
    rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
    rfl
  | ⟨1, _⟩ => exact (dot_S1024x1024_S1024x1024_S1024x1024_1_1_0_0_n_n.rhsIdx_val_of_single rfl (ix2 p q) κ).trans hκ)

/-- Accumulating one block product: entry (p, q) gains ∑ⱼ A (p, j) · B (q, j). -/
theorem product_entry (x0 x1 : FVec Ideal S1024x1024 .bf16) (acc : FVec Ideal S1024x1024 .f32) (p q : Fin 1024) :
    k0_pay2 (F := Ideal) x0 x1 acc (ix2 p q) = acc (ix2 p q) + ∑ j : Fin 1024, x0 (ix2 p j) * x1 (ix2 q j) := by
  unfold k0_pay2
  simp only [shapeCast_self]
  show acc (ix2 p q) + FloatOps.matmul dot_S1024x1024_S1024x1024_S1024x1024_1_1_0_0_n_n none x0 x1 (constant S1024x1024 .f32 0x00000000#32) (ix2 p q) = _
  rw [Ideal.matmul_constant_zero_apply, ← Equiv.sum_comp (contrEquiv1 dot_S1024x1024_S1024x1024_S1024x1024_1_1_0_0_n_n 1024 rfl rfl).symm]
  refine congrArg (acc (ix2 p q) + ·) (Finset.sum_congr rfl fun k _ => ?_)
  have hk := contrEquiv1_symm_val dot_S1024x1024_S1024x1024_S1024x1024_1_1_0_0_n_n 1024 rfl rfl k
  rw [lhs_at p q k _ hk, rhs_at p q k _ hk]

/-- Adding the bias row: entry (p, q) gains entry (0, q) of the row. -/
theorem bias_entry (x2 : FVec Ideal S1x1024 .f32) (v : FVec Ideal S1024x1024 .f32) (p q : Fin 1024) :
    k0_pay3 (F := Ideal) x2 v (ix2 p q) = v (ix2 p q) + x2 (ix2 (0 : Fin 1) q) := by
  unfold k0_pay3
  simp only [shapeCast_self]
  show v (ix2 p q) + broadcastTo S1024x1024 x2 broadcasts_S1x1024_S1024x1024 (ix2 p q) = _
  refine congrArg (v (ix2 p q) + ·) ?_
  exact broadcastTo_apply x2 broadcasts_S1x1024_S1024x1024 (ix2 p q) (ix2 (0 : Fin 1) q) (fun a => by
    match a with
    | ⟨0, _⟩ => rfl
    | ⟨1, _⟩ => rfl)

end Cert.KernelIdeal.Tile

end
-- ==== Proof.TileReads.lean ====
/-
  What the three input blocks of a grid point hold, entry by entry, in terms of the arrays the program starts from
  (exact values). Grid point n = 16·R + 4·C + d reads

    * block (R, d) of the rounded input matrix — rounding to bf16 is the identity at the exact values, so entry
      (p, j) of the block is X (1024·R + p, 1024·d + j);
    * block (C, d) of the rounded weight matrix: entry (q, j) is W (1024·C + q, 1024·d + j), W the matrix the host
      operations before the launch leave (the scatter-add's result, rounded — again the identity);
    * block (0, C) of the bias vector recast as one row: entry (0, q) is b (1024·C + q).

  The block indices are the printed index maps, decided once over the 128 grid points.
-/
import proofs.«102108_j29695403884701_1_alg».proof.Proof.Gen.KernelIdeal.Frame
import proofs.«102108_j29695403884701_1_alg».proof.Proof.Affine
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem

namespace Cert.KernelIdeal.Tile

open Cert.KernelIdeal Cert.KernelIdeal.Gen Idealize.ShloMosaic.ValueIdx Idealize.ShloMosaic.StableHlo
open Cert.Affine (rowOf colOf depthOf)

variable (m : (ℓ : Loc nD τ sig) → Buf (Elt Ideal) ℓ)

/-- The block index of every window at every grid point: point n = 16·R + 4·C + d reads blocks (R, d), (C, d),
    (0, C) and writes block (R, C). -/
theorem block_indices : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The weight matrix as the launch finds it (the host operations' result for the second window's array). -/
abbrev weights (c : Dev nD) : Cert.Affine.WIdx → EReal := V m c main_v20

/-- The first window's array is the input matrix rounded to bf16: at the exact values, the input matrix. -/
theorem input_array (c : Dev nD) (i : S8192x4096.Idx) :
    V m c main_v19 i = m ((c : Thread nD τ).loc main_arg0) i := by
  have e : V m c main_v19
      = (truncf (F := Ideal) .bf16 (m ((c : Thread nD τ).loc main_arg0) : FVec Ideal S8192x4096 .f32) bitsLt_bf16_f32 : FVec Ideal S8192x4096 .bf16) := by
    dsimp only [Gen.V, Gen.hostOps0]; after_results <;> rfl
  rw [e]
  rfl

/-- The third window's array is the bias vector recast as a 1 × 4096 row. -/
theorem bias_array (c : Dev nD) (q : Fin 4096) :
    V m c main_v21 (ix2 (0 : Fin 1) q) = m ((c : Thread nD τ).loc main_arg3) (ix1 q) := by
  have e : V m c main_v21
      = (shapeCast S1x4096 (m ((c : Thread nD τ).loc main_arg3) : FVec Ideal S4096 .f32) shapeCasts_S4096_S1x4096 : FVec Ideal S1x4096 .f32) := by
    dsimp only [Gen.V, Gen.hostOps0]; after_results <;> rfl
  rw [e]
  exact shapeCast_apply _ shapeCasts_S4096_S1x4096 (ix2 (0 : Fin 1) q) (ix1 q)
    (by rewrite [Shape.rowMajor_val_two, Shape.rowMajor_val_one]; show q.val = 0 * 4096 + q.val; omega)

/-- Entry (p, j) of the input block at point t. -/
theorem input_block (c : Dev nD) (t : Fin cfg0.N) (p j : Fin 1024) :
    iblk m c 0 t (ix2 p j) = m ((c : Thread nD τ).loc main_arg0) (ix2 (rowOf t.val p) (depthOf t.val j)) := by
  obtain ⟨e0, e1, -⟩ := block_indices t
  have hN : t.val < 128 := lt_of_lt_of_eq t.isLt N_0
  unfold iblk
  rw [View.read_apply]
  show V m c main_v19 (((cfg0.win 0).blk t).view.emb (ix2 p j)) = _
  rw [input_array]
  refine congrArg (m ((c : Thread nD τ).loc main_arg0)) (funext fun a => Fin.ext ?_)
  match a with
  | ⟨0, _⟩ =>
    show win0_0.index t (0 : Fin 2) * 1024 + 1 * p.val = (1024 * (t.val / 16) + p.val) % 8192
    rw [e0]; have := p.isLt; omega
  | ⟨1, _⟩ =>
    show win0_0.index t (1 : Fin 2) * 1024 + 1 * j.val = (1024 * (t.val % 4) + j.val) % 4096
    rw [e1]; have := j.isLt; omega

/-- Entry (q, j) of block t of ANY 4096 × 4096 array read through the second window. -/
theorem weight_block_of (c : Dev nD) (G : Buf (Elt Ideal) ((c : Thread nD τ).loc main_v20)) (t : Fin cfg0.N) (q j : Fin 1024) :
    ((cfg0.win 1).blk t).view.read (Elt Ideal) G (ix2 q j) = G (ix2 (colOf t.val q) (depthOf t.val j)) := by
  obtain ⟨-, -, e0, e1, -⟩ := block_indices t
  have hN : t.val < 128 := lt_of_lt_of_eq t.isLt N_0
  rw [View.read_apply]
  refine congrArg G (funext fun a => Fin.ext ?_)
  match a with
  | ⟨0, _⟩ =>
    show win0_1.index t (0 : Fin 2) * 1024 + 1 * q.val = (1024 * (t.val / 4 % 4) + q.val) % 4096
    rw [e0]; have := q.isLt; omega
  | ⟨1, _⟩ =>
    show win0_1.index t (1 : Fin 2) * 1024 + 1 * j.val = (1024 * (t.val % 4) + j.val) % 4096
    rw [e1]; have := j.isLt; omega

/-- Entry (q, j) of the weight block at point t. -/
theorem weight_block (c : Dev nD) (t : Fin cfg0.N) (q j : Fin 1024) :
    iblk m c 1 t (ix2 q j) = weights m c (ix2 (colOf t.val q) (depthOf t.val j)) :=
  weight_block_of c (V m c main_v20) t q j

/-- Entry (0, q) of block t of ANY 1 × 4096 array read through the third window. -/
theorem bias_block_of (c : Dev nD) (G : Buf (Elt Ideal) ((c : Thread nD τ).loc main_v21)) (t : Fin cfg0.N) (q : Fin 1024) :
    ((cfg0.win 2).blk t).view.read (Elt Ideal) G (ix2 (0 : Fin 1) q) = G (ix2 (0 : Fin 1) (colOf t.val q)) := by
  obtain ⟨-, -, -, -, e0, e1, -⟩ := block_indices t
  have hN : t.val < 128 := lt_of_lt_of_eq t.isLt N_0
  rw [View.read_apply]
  refine congrArg G (funext fun a => Fin.ext ?_)
  match a with
  | ⟨0, _⟩ =>
    show win0_2.index t (0 : Fin 2) * 1 + 1 * 0 = 0
    rw [e0]
  | ⟨1, _⟩ =>
    show win0_2.index t (1 : Fin 2) * 1024 + 1 * q.val = (1024 * (t.val / 4 % 4) + q.val) % 4096
    rw [e1]; have := q.isLt; omega

/-- Entry (0, q) of the bias block at point t. -/
theorem bias_block (c : Dev nD) (t : Fin cfg0.N) (q : Fin 1024) :
    iblk m c 2 t (ix2 (0 : Fin 1) q) = m ((c : Thread nD τ).loc main_arg3) (ix1 (colOf t.val q)) :=
  (bias_block_of c (V m c main_v21) t q).trans (bias_array m c (colOf t.val q))

end Cert.KernelIdeal.Tile

end
-- ==== Proof.TileValue.lean ====
/-
  The blocked program's result array, at the exact values, is X · Wᵀ + b (`Cert.Affine.affine`) of the input
  matrix, the weight matrix the launch finds, and the bias vector.

  The 128 grid points come in 32 runs of four (one run per output block, one point per depth block). Within a run
  the accumulator is reset to zero-plus-the-first-partial-product and then gains one partial dot product per point
  (`first_point`, `later_point`); unrolling the generated fold gives, after the run's last point, zero plus the four
  partial products (`acc_at_flush`), to which the last point adds the bias entry before the block is written back
  (`written_entry`). Regrouping the four partial sums into the full contraction (`Cert.Affine.run_total`) makes every
  written block a block of the one function `affine`, and the 32 written blocks tile the array (`covered`).
-/
import proofs.«102108_j29695403884701_1_alg».proof.Proof.Gen.KernelIdeal.Value
import proofs.«102108_j29695403884701_1_alg».proof.Proof.Affine
import proofs.«102108_j29695403884701_1_alg».proof.Proof.TilePieces
import proofs.«102108_j29695403884701_1_alg».proof.Proof.TileEntries
import proofs.«102108_j29695403884701_1_alg».proof.Proof.TileReads

noncomputable section

open Idealize.ShloMosaic Idealize.ShloMosaic.TcCoe Idealize.SL.Sem
open Idealize.ShloMosaic.Pipeline (Dat)

namespace Cert.KernelIdeal.Tile

open Cert.KernelIdeal Cert.KernelIdeal.Gen Cert.KernelIdeal.Value Idealize.ShloMosaic.ValueIdx
open Cert.Affine (rowOf colOf depthOf pointTerm affine)

variable (m : (ℓ : Loc nD τ sig) → Buf (Elt Ideal) ℓ) (ρ : Dev nD → PrngReg)

/-- The input matrix and the bias vector as launched. -/
abbrev inputs (c : Dev nD) : Cert.Affine.XIdx → EReal := m ((c : Thread nD τ).loc main_arg0)
abbrev biasVec (c : Dev nD) : Cert.Affine.BIdx → EReal := m ((c : Thread nD τ).loc main_arg3)

/-- Accumulating the product of two blocks that hold point n's slices of X and W adds point n's partial dot
    product to every entry of the accumulator. -/
theorem step_entry (x0 x1 : FVec Ideal S1024x1024 .bf16) (acc : FVec Ideal S1024x1024 .f32)
    (X : Cert.Affine.XIdx → EReal) (W : Cert.Affine.WIdx → EReal) (n : ℕ) (y : S1024x1024.Idx)
    (hx0 : ∀ p j : Fin 1024, x0 (ix2 p j) = X (ix2 (rowOf n p) (depthOf n j)))
    (hx1 : ∀ q j : Fin 1024, x1 (ix2 q j) = W (ix2 (colOf n q) (depthOf n j))) :
    k0_pay2 (F := Ideal) x0 x1 acc y = acc y + pointTerm X W n y := by
  obtain ⟨p, q, rfl⟩ : ∃ (p q : Fin 1024), y = ix2 p q := ⟨y 0, y 1, eq_ix2 y⟩
  refine (product_entry x0 x1 acc p q).trans ?_
  show acc (ix2 p q) + _ = acc (ix2 p q) + ∑ j : Fin 1024, X (ix2 (rowOf n p) (depthOf n j)) * W (ix2 (colOf n q) (depthOf n j))
  refine congrArg (acc (ix2 p q) + ·) (Finset.sum_congr rfl fun j _ => ?_)
  rw [hx0, hx1]

/-- The first point of a run leaves zero plus its partial product, whatever the accumulator held. -/
theorem first_point (c : Dev nD) (n : ℕ) (hb : n < cfg0.N) (h0 : n % 4 = 0) (acc : Vec Ideal S1024x1024 .f32)
    (y : S1024x1024.Idx) :
    scAt0_0 m c n hb acc y = 0 + pointTerm (inputs m c) (weights m c) n y := by
  have h1 : ¬n % 4 = 3 := by omega
  unfold scAt0_0
  rw [dif_pos h0, dif_neg h1]
  refine (congrFun (acc_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))) y).trans ?_
  refine (step_entry (iblk m c 0 (⟨n, hb⟩ : Fin cfg0.N)) (iblk m c 1 (⟨n, hb⟩ : Fin cfg0.N)) (k0_pay1 (F := Ideal)) (inputs m c) (weights m c) n y
    (input_block m c (⟨n, hb⟩ : Fin cfg0.N)) (weight_block m c (⟨n, hb⟩ : Fin cfg0.N))).trans ?_
  rw [zero_entry]

/-- Every later point of the run adds its partial product to what the point before left. -/
theorem later_point (c : Dev nD) (n : ℕ) (hb : n < cfg0.N) (h0 : ¬n % 4 = 0) (acc : Vec Ideal S1024x1024 .f32)
    (y : S1024x1024.Idx) :
    scAt0_0 m c n hb acc y = acc y + pointTerm (inputs m c) (weights m c) n y := by
  unfold scAt0_0
  rw [dif_neg h0]
  by_cases h1 : n % 4 = 3
  · rw [dif_pos h1]
    refine (congrFun (acc_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc) y).trans ?_
    exact step_entry (iblk m c 0 (⟨n, hb⟩ : Fin cfg0.N)) (iblk m c 1 (⟨n, hb⟩ : Fin cfg0.N)) acc (inputs m c) (weights m c) n y
      (input_block m c (⟨n, hb⟩ : Fin cfg0.N)) (weight_block m c (⟨n, hb⟩ : Fin cfg0.N))
  · rw [dif_neg h1]
    refine (congrFun (acc_later (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc) y).trans ?_
    exact step_entry (iblk m c 0 (⟨n, hb⟩ : Fin cfg0.N)) (iblk m c 1 (⟨n, hb⟩ : Fin cfg0.N)) acc (inputs m c) (weights m c) n y
      (input_block m c (⟨n, hb⟩ : Fin cfg0.N)) (weight_block m c (⟨n, hb⟩ : Fin cfg0.N))

/-- After the last point of a run the accumulator holds zero plus the run's four partial products. -/
theorem acc_at_flush (c : Dev nD) (t : Fin cfg0.N) (h3 : t.val % 4 = 3) (y : S1024x1024.Idx) :
    (outsAt0 m c t.val t.isLt).2 y
      = 0 + ∑ s ∈ Finset.range 4, pointTerm (inputs m c) (weights m c) (4 * (t.val / 4) + s) y := by
  rw [soutsAt0_0_eq m c t]
  have key := Pipeline.accAt_add_apply (N := cfg0.N) (ι := S1024x1024.Idx) (β := EReal)
    (fun n h => scAt0_0 m c n h (VS0_0.read (Elt Ideal) VS0_0.junk)) (scAt0_0 m c) (fun _ => 0)
    (fun n y => pointTerm (inputs m c) (weights m c) n y) (4 * (t.val / 4)) 3
    (fun h i => first_point m c (4 * (t.val / 4)) h (by omega) _ i)
    (fun n h acc i h1 h2 => later_point m c n h (by omega) acc i)
  refine (key (t.val % 4) (by omega) _ y).trans ?_
  rw [h3]

/-- At the last point of a run the output block is the accumulator plus the bias row. -/
theorem out_of_acc (c : Dev nD) (t : Fin cfg0.N) (h0 : ¬t.val % 4 = 0) (h3 : t.val % 4 = 3) :
    (outsAt0 m c t.val t.isLt).1 = k0_pay3 (F := Ideal) (iblk m c 2 t) (outsAt0 m c t.val t.isLt).2 := by
  rw [outsAt0_C m c t h0 h3]
  dsimp only
  refine (out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) _).trans ?_
  refine congrArg (k0_pay3 (F := Ideal) (iblk m c 2 t)) ?_
  exact (acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) _).symm

/-- What the result array ends holding: X · Wᵀ + b. -/
abbrev result (c : Dev nD) : Buf (Elt Ideal) ((c : Thread nD τ).loc main_v22) :=
  affine (inputs m c) (weights m c) (biasVec m c)

/-- Entry y of the block a run's last point writes back is the entry of X · Wᵀ + b at the array position the
    block places it at. -/
theorem written_entry (c : Dev nD) (t : Fin cfg0.N) (h0 : ¬t.val % 4 = 0) (h3 : t.val % 4 = 3) (y : S1024x1024.Idx)
    (i : S8192x4096.Idx) (hi0 : (i 0).val = t.val / 16 * 1024 + (y 0).val) (hi1 : (i 1).val = t.val / 4 % 4 * 1024 + (y 1).val) :
    (outsAt0 m c t.val t.isLt).1 y = result m c i := by
  have hN : t.val < 128 := lt_of_lt_of_eq t.isLt N_0
  have hy0 : (y 0).val < 1024 := (y 0).isLt
  have hy1 : (y 1).val < 1024 := (y 1).isLt
  rw [out_of_acc m c t h0 h3]
  obtain ⟨p, q, rfl⟩ : ∃ (p q : Fin 1024), y = ix2 p q := ⟨y 0, y 1, eq_ix2 y⟩
  refine (bias_entry (iblk m c 2 t) _ p q).trans ?_
  rw [acc_at_flush m c t h3, bias_block m c t q]
  exact Cert.Affine.run_total (inputs m c) (weights m c) (biasVec m c) t.val (ix2 p q) i
    (Fin.ext (by show (i 0).val = (1024 * (t.val / 16) + p.val) % 8192; rw [hi0]; show t.val / 16 * 1024 + p.val = _; omega))
    (Fin.ext (by show (i 1).val = (1024 * (t.val / 4 % 4) + q.val) % 4096; rw [hi1]; show t.val / 4 % 4 * 1024 + q.val = _; omega))

/-- WHAT A WRITING POINT WRITES BACK is its block of X · Wᵀ + b. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have h0 : ¬t.val % 4 = 0 := by omega
  obtain ⟨-, -, -, -, -, -, e0, e1⟩ := block_indices t
  rw [flushed3 m c t]
  funext y
  rw [View.read_apply]
  refine written_entry m c t h0 h3 y _ ?_ ?_
  · show win0_3.index t (0 : Fin 2) * 1024 + 1 * (y 0).val = t.val / 16 * 1024 + (y 0).val
    rw [e0]; omega
  · show win0_3.index t (1 : Fin 2) * 1024 + 1 * (y 1).val = t.val / 4 % 4 * 1024 + (y 1).val
    rw [e1]; omega

/-- An index of the array is in point t's output block iff each coordinate is in the block's range. -/
theorem mem_block (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v22).slice (win0_3.rect t)).set ↔ _
  rw [View.set_slice_whole, Rect.mem_set_unit]
  exact Iff.rfl

/-- Every entry (r, c) of the array lies in the block written by the last point of run (r / 1024, c / 1024). -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hlt : 16 * ((i 0).val / 1024) + 4 * ((i 1).val / 1024) + 3 < cfg0.N :=
    lt_of_lt_of_eq (by omega : 16 * ((i 0).val / 1024) + 4 * ((i 1).val / 1024) + 3 < 128) N_0.symm
  obtain ⟨-, -, -, -, -, -, e0, e1⟩ := block_indices ⟨_, hlt⟩
  refine ⟨⟨_, hlt⟩, (flush0_3 _).mpr (by show (16 * ((i 0).val / 1024) + 4 * ((i 1).val / 1024) + 3) % 4 = 3; omega), ?_⟩
  rw [mem_block]
  intro a
  match a with
  | ⟨0, _⟩ =>
    show win0_3.index ⟨_, hlt⟩ (0 : Fin 2) * 1024 ≤ (i 0).val ∧ (i 0).val < win0_3.index ⟨_, hlt⟩ (0 : Fin 2) * 1024 + 1024
    rw [e0]
    show (16 * ((i 0).val / 1024) + 4 * ((i 1).val / 1024) + 3) / 16 * 1024 ≤ (i 0).val ∧ (i 0).val < (16 * ((i 0).val / 1024) + 4 * ((i 1).val / 1024) + 3) / 16 * 1024 + 1024
    omega
  | ⟨1, _⟩ =>
    show win0_3.index ⟨_, hlt⟩ (1 : Fin 2) * 1024 ≤ (i 1).val ∧ (i 1).val < win0_3.index ⟨_, hlt⟩ (1 : Fin 2) * 1024 + 1024
    rw [e1]
    show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024
    omega

/-- The result array after the run. -/
theorem final (c : Dev nD) : (dats m 0 c).arrAt 3 cfg0.N = result m c :=
  (dats m 0 c).arrAt_eq_of_cover 3 (result m c) (flushed_eq m c) covered

/-- The run, read: the result array at X · Wᵀ + b, the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Tile

end
-- ==== Proof.lean ====
/-
  A linear layer with a sparse (COO) weight matrix: the weights are scatter-added into a dense 4096 × 4096 matrix W
  (duplicates summing), and the result is X · Wᵀ + b for an 8192 × 4096 input X and a bias b.

  The reference computes exactly that: one matrix product of X with the transpose of W, plus the bias broadcast over
  the rows. The kernel program builds the same W by the same host operations, rounds X and W to bf16 — the identity
  at the exact values — and runs a blocked product on a grid of 8 × 4 × 4 points: point (R, C, d) multiplies block
  (R, d) of X with block (C, d) of W, contracting both along their second axis, and adds the product into an
  accumulator that is zeroed at d = 0; at d = 3 it adds block C of the bias and stores output block (R, C).

  Over the extended reals entry (r, c) of the kernel's result is therefore

      (((0 + s₀) + s₁) + s₂) + s₃) + b c,    s_d = ∑_{j < 1024} X (r, 1024·d + j) · W (c, 1024·d + j),

  and the reference's is (∑_{k < 4096} X (r, k) · W (c, k)) + b c. The two agree because a sum over 4 · 1024
  consecutive positions is the sum of its four blocks — commutativity and associativity of addition only, which
  hold for every extended real, so the finiteness of the inputs is never used. The kernel's idealization rewrote
  nothing, so that conjunct is trivial; the three frame conjuncts are the generated frame runs (the reference's with
  its result dropped).
-/
import proofs.«102108_j29695403884701_1_alg».proof.Defs
import proofs.«102108_j29695403884701_1_alg».proof.Proof.Gen.Kernel
import proofs.«102108_j29695403884701_1_alg».proof.Proof.Gen.Kernel.Skeleton
import proofs.«102108_j29695403884701_1_alg».proof.Proof.Gen.Kernel.Launch
import proofs.«102108_j29695403884701_1_alg».proof.Proof.Gen.Kernel.Points
import proofs.«102108_j29695403884701_1_alg».proof.Proof.Gen.Kernel.Frame
import proofs.«102108_j29695403884701_1_alg».proof.Proof.Gen.KernelIdeal
import proofs.«102108_j29695403884701_1_alg».proof.Proof.Gen.KernelIdeal.Skeleton
import proofs.«102108_j29695403884701_1_alg».proof.Proof.Gen.KernelIdeal.Launch
import proofs.«102108_j29695403884701_1_alg».proof.Proof.Gen.KernelIdeal.Points
import proofs.«102108_j29695403884701_1_alg».proof.Proof.Gen.KernelIdeal.Frame
import proofs.«102108_j29695403884701_1_alg».proof.Proof.Gen.ReferenceIdeal
import proofs.«102108_j29695403884701_1_alg».proof.Proof.Gen.KernelIdeal.Value
import proofs.«102108_j29695403884701_1_alg».proof.Proof.Gen.ReferenceIdeal.Run
import proofs.«102108_j29695403884701_1_alg».proof.Proof.Gen.ReferenceIdeal.Read
import proofs.«102108_j29695403884701_1_alg».proof.Proof.Affine
import proofs.«102108_j29695403884701_1_alg».proof.Proof.RefAffine
import proofs.«102108_j29695403884701_1_alg».proof.Proof.WeightsAgree
import proofs.«102108_j29695403884701_1_alg».proof.Proof.TileValue
import proofs.«102108_j29695403884701_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The kernel program runs and leaves its arguments unchanged: the generated frame run. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is host operations only: its generated run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the exact values the kernel's result array ends at X · Wᵀ + b with W the matrix its launch finds, the
    reference's at X · Wᵀ + b with W its own scatter-add of arguments that agree — and the two matrices are one. -/
theorem algebraic : Cert.algebraic_KernelIdeal_ReferenceIdeal := by
  intro m ρ m' ρ' _ hagree
  refine ⟨fun c => Cert.KernelIdeal.Tile.result m c, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  have hW : Cert.KernelIdeal.Tile.weights m c = Cert.ReferenceIdeal.Read.val_main_v18 (F := Ideal) _ _ :=
    Cert.KernelIdeal.Tile.weights_agree m c
  rw [Cert.ReferenceIdeal.Read.val_main_v23_eq, Cert.ReferenceIdeal.RefValue.result_is_affine,
    (hagree c).1, (hagree c).2.1, (hagree c).2.2.1, (hagree c).2.2.2]
  show Cert.Affine.affine _ _ _ = Cert.Affine.affine _ (Cert.KernelIdeal.Tile.weights m c) _
  rw [hW]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
